-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S2000x128 : Shape := ⟨2, ![2000, 128]⟩
abbrev S2000x1 : Shape := ⟨2, ![2000, 1]⟩

abbrev nBuf : Space → Nat
  | .hbm => 40
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .bf16⟩
  | .hbm, ⟨8, _⟩ => ⟨S128x128, .f32⟩
  | .hbm, ⟨9, _⟩ => ⟨S128x128, .bf16⟩
  | .hbm, ⟨10, _⟩ => ⟨S1x128, .f32⟩
  | .hbm, ⟨11, _⟩ => ⟨S50000x128, .bf16⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .bf16⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  bitsLt_bf16_f32 : FTy.bits .bf16 < FTy.bits .f32
  shapeCasts_S128_S1x128 : S128.ShapeCasts S1x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v5) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S128x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.LibColumn.lean ====
/-
  Two layout operations of a keepdims reduction read at an index: a vector `[a]` recast as a column `[a, 1]`, and a
  column `[a, 1]` broadcast along its rows to `[a, b]`. Both read the operand at the row's coordinate.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The kernel body's stored value, read at one entry of the block.

  For a block of 2000 rows the body stores
      max ((h_blk · WsT + b) + (sums_blk · WeT) * invdeg_blk, 0):
  entry (p, q) is the maximum with zero of
      (∑ k, h_blk (p, k) * WsT (k, q)) + b (0, q) + (∑ k, sums_blk (p, k) * WeT (k, q)) * invdeg_blk (p, 0).
  Both products accumulate into a zero block, so each is the plain contraction sum; the changes of float format are the
  identity on extended reals; the bias row is broadcast down the rows and the inverse-degree column across the columns.
-/
import proofs.«103451_j35192962023430_2_alg».proof.Proof.Gen.KernelIdeal.Skeleton
import proofs.«103451_j35192962023430_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The left operand's index at output entry `i` and contraction index `q`: row of the output … -/
theorem blockDot_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … and the contracted coordinate; -/
theorem blockDot_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand's: the contracted coordinate … -/
theorem blockDot_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the column of the output. -/
theorem blockDot_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block product into a zero accumulator, read at (p, q): the sum over the contracted axis of the products. -/
theorem blockMatmul_apply (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q)
      ((ValueIdx.contrEquiv1 dot_S2000x128_S128x128_S2000x128_1_0_0_1_n_n 128 rfl rfl).symm k) = ix2 p k :=
    funext fun a => Fin.ext (by
      match a with
      | ⟨0, _⟩ => exact blockDot_lhs0 _ _
      | ⟨1, _⟩ => exact (blockDot_lhs1 _ _).trans hk)
  have er : dot_S2000x128_S128x128_S2000x128_1_0_0_1_n_n.rhsIdx (ix2 p q)
      ((ValueIdx.contrEquiv1 dot_S2000x128_S128x128_S2000x128_1_0_0_1_n_n 128 rfl rfl).symm k) = ix2 k q :=
    funext fun a => Fin.ext (by
      match a with
      | ⟨0, _⟩ => exact (blockDot_rhs0 _ _).trans hk
      | ⟨1, _⟩ => exact blockDot_rhs1 _ _)
  rw [el, er]

/-- THE STORED VALUE AT (p, q). -/
theorem pay_apply (v0 : FVec Ideal S2000x128 .bf16) (v2 : FVec Ideal S2000x128 .f32) (v5 v8 : FVec Ideal S128x128 .bf16)
    (v11 : FVec Ideal S1x128 .f32) (v15 : FVec Ideal S2000x1 .f32) (p : Fin 2000) (q : Fin 128) :
    k0_pay1 (F := Ideal) v0 v2 v5 v8 v11 v15 (ix2 p q)
      = max (((∑ k : Fin 128, v0 (ix2 p k) * v5 (ix2 k q)) + v11 (ix2 (0 : Fin 1) q))
          + (∑ k : Fin 128, v2 (ix2 p k) * v8 (ix2 k q)) * v15 (ix2 p (0 : Fin 1))) 0 := by
  unfold k0_pay1
  simp only [shapeCast_self]
  rw [maximumf_apply, addf_apply, addf_apply, mulf_apply, blockMatmul_apply, blockMatmul_apply,
    broadcastTo_1b_ab_apply, broadcastTo_a1_ab_apply, broadcast_apply]
  simp only [truncf_apply]
  show max _ (Ideal.ofBits .f32 0x00000000#32) = _
  rw [Ideal.ofBits_zero_f32]

end Cert.KernelIdeal.Hand

end
-- ==== Proof.Spec.lean ====
/-
  The result as one function of the arrays the fused call is launched on.

  Entry (n, j) is the maximum with zero of
      (∑ k, h (n, k) * WsT (k, j)) + b (0, j) + (∑ k, sums (n, k) * WeT (k, j)) * inv (n, 0):
  the self-loop product plus the bias, plus the edge product of the per-node sums scaled by the inverse degree.
-/
import proofs.«103451_j35192962023430_2_alg».proof.KernelIdeal
import Idealize.ShloMosaic.Lib.ValueIdx

noncomputable section

open scoped BigOperators

namespace Cert.KernelIdeal.Hand

open Cert.KernelIdeal Idealize.ShloMosaic Idealize.ShloMosaic.ValueIdx

/-- Entry (n, j) of the result, from the whole operand arrays. -/
def outAt (x0 : S50000x128.Idx → EReal) (x1 : S50000x128.Idx → EReal) (x2 : S50000x1.Idx → EReal)
    (x3 x4 : S128x128.Idx → EReal) (x5 : S1x128.Idx → EReal) (n : Fin 50000) (j : Fin 128) : EReal :=
  max (((∑ k : Fin 128, x0 (ix2 n k) * x4 (ix2 k j)) + x5 (ix2 (0 : Fin 1) j))
    + (∑ k : Fin 128, x1 (ix2 n k) * x3 (ix2 k j)) * x2 (ix2 n (0 : Fin 1))) 0

/-- The result array as one function of the operand arrays. -/
def outOf (x0 : S50000x128.Idx → EReal) (x1 : S50000x128.Idx → EReal) (x2 : S50000x1.Idx → EReal)
    (x3 x4 : S128x128.Idx → EReal) (x5 : S1x128.Idx → EReal) : S50000x128.Idx → EReal :=
  fun i => outAt x0 x1 x2 x3 x4 x5 (i 0) (i 1)

end Cert.KernelIdeal.Hand

end
-- ==== Proof.Blocks.lean ====
/-
  From blocks to the whole result array.

  The call runs over 25 grid points; point `t` reads rows `2000 t … 2000 t + 1999` of `h`, of the per-node sums and of
  the inverse-degree column, the whole of both weight matrices and of the bias row, and writes rows
  `2000 t … 2000 t + 1999` of the result. Entry (p, q) of the block written at `t` is therefore entry
  (2000 t + p, q) of ONE function of the whole operand arrays, `outOf`; the 25 blocks tile the 50000 rows (row `r` lies in
  the block of point `r / 2000`), so after the run the result array is `outOf` of the operand arrays.
-/
import proofs.«103451_j35192962023430_2_alg».proof.Proof.Gen.KernelIdeal.Value
import proofs.«103451_j35192962023430_2_alg».proof.Proof.Payload
import proofs.«103451_j35192962023430_2_alg».proof.Proof.Spec

noncomputable section

open scoped BigOperators

namespace Cert.KernelIdeal.Hand

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the three row-blocked operands and the result are at block row `t`, block
    column 0; the weights and the bias are always at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The stored value at (p, q) of six blocks whose rows `p` (and whole weight and bias blocks) are row `r` (and the
    whole) of six arrays is entry (r, q) of `outOf` of the arrays. Stated over arbitrary blocks and arrays. -/
theorem block_value (b0 : FVec Ideal S2000x128 .bf16) (b1 : FVec Ideal S2000x128 .f32) (b2 : FVec Ideal S2000x1 .f32)
    (b3 b4 : FVec Ideal S128x128 .bf16) (b5 : FVec Ideal S1x128 .f32)
    (A0 A1 : S50000x128.Idx → EReal) (A2 : S50000x1.Idx → EReal) (A3 A4 : S128x128.Idx → EReal) (A5 : S1x128.Idx → EReal)
    (p : Fin 2000) (q : Fin 128) (r : Fin 50000)
    (h0 : ∀ k : Fin 128, b0 (ix2 p k) = A0 (ix2 r k)) (h1 : ∀ k : Fin 128, b1 (ix2 p k) = A1 (ix2 r k))
    (h2 : b2 (ix2 p (0 : Fin 1)) = A2 (ix2 r (0 : Fin 1)))
    (h3 : ∀ k : Fin 128, b3 (ix2 k q) = A3 (ix2 k q)) (h4 : ∀ k : Fin 128, b4 (ix2 k q) = A4 (ix2 k q))
    (h5 : b5 (ix2 (0 : Fin 1) q) = A5 (ix2 (0 : Fin 1) q)) :
    k0_pay1 (F := Ideal) b0 b1 b4 b3 b5 b2 (ix2 p q) = outAt A0 A1 A2 A3 A4 A5 r q := by
  rw [pay_apply]
  unfold outAt
  simp only [h0, h1, h2, h3, h4, h5]

section Reads
variable (c : Dev nD) (t : Fin cfg0.N)

/-- Row `p` of the block of `h` at point `t` is row `2000 t + p` of `h` (whatever the array holds). -/
theorem read_h (A : Buf (Elt Ideal) ((c : Thread nD τ).loc (Pipeline.arrRef spec0 0))) (p : Fin 2000) (k : Fin 128)
    (r : Fin 50000) (hr : r.val = t.val * 2000 + p.val) :
    ((cfg0.win 0).blk t).view.read (Elt Ideal) A (ix2 p k) = A (ix2 r k) := by
  show A (((cfg0.win 0).blk t).view.emb (ix2 p k)) = A (ix2 r k)
  have e : ((cfg0.win 0).blk t).view.emb (ix2 p k) = ix2 r k := by
    obtain ⟨e0, e1, -⟩ := block_indices t
    funext a; apply Fin.ext
    match a with
    | ⟨0, _⟩ => show win0_0.index t (0 : Fin 2) * 2000 + 1 * p.val = r.val; omega
    | ⟨1, _⟩ => show win0_0.index t (1 : Fin 2) * 128 + 1 * k.val = k.val; omega
  rw [e]

/-- Row `p` of the block of the per-node sums at point `t` is row `2000 t + p`. -/
theorem read_sums (A : Buf (Elt Ideal) ((c : Thread nD τ).loc (Pipeline.arrRef spec0 1))) (p : Fin 2000) (k : Fin 128)
    (r : Fin 50000) (hr : r.val = t.val * 2000 + p.val) :
    ((cfg0.win 1).blk t).view.read (Elt Ideal) A (ix2 p k) = A (ix2 r k) := by
  show A (((cfg0.win 1).blk t).view.emb (ix2 p k)) = A (ix2 r k)
  have e : ((cfg0.win 1).blk t).view.emb (ix2 p k) = ix2 r k := by
    obtain ⟨-, -, e0, e1, -⟩ := block_indices t
    funext a; apply Fin.ext
    match a with
    | ⟨0, _⟩ => show win0_1.index t (0 : Fin 2) * 2000 + 1 * p.val = r.val; omega
    | ⟨1, _⟩ => show win0_1.index t (1 : Fin 2) * 128 + 1 * k.val = k.val; omega
  rw [e]

/-- Row `p` of the block of the inverse-degree column at point `t` is row `2000 t + p`. -/
theorem read_inv (A : Buf (Elt Ideal) ((c : Thread nD τ).loc (Pipeline.arrRef spec0 2))) (p : Fin 2000) (u : Fin 1)
    (r : Fin 50000) (hr : r.val = t.val * 2000 + p.val) :
    ((cfg0.win 2).blk t).view.read (Elt Ideal) A (ix2 p u) = A (ix2 r u) := by
  show A (((cfg0.win 2).blk t).view.emb (ix2 p u)) = A (ix2 r u)
  have e : ((cfg0.win 2).blk t).view.emb (ix2 p u) = ix2 r u := by
    obtain ⟨-, -, -, -, e0, e1, -⟩ := block_indices t
    funext a; apply Fin.ext
    match a with
    | ⟨0, _⟩ => show win0_2.index t (0 : Fin 2) * 2000 + 1 * p.val = r.val; omega
    | ⟨1, _⟩ => show win0_2.index t (1 : Fin 2) * 1 + 1 * u.val = u.val; omega
  rw [e]

/-- The block of `WeT` is the whole matrix at every point. -/
theorem read_we (A : Buf (Elt Ideal) ((c : Thread nD τ).loc (Pipeline.arrRef spec0 3))) (k q : Fin 128) :
    ((cfg0.win 3).blk t).view.read (Elt Ideal) A (ix2 k q) = A (ix2 k q) := by
  show A (((cfg0.win 3).blk t).view.emb (ix2 k q)) = A (ix2 k q)
  have e : ((cfg0.win 3).blk t).view.emb (ix2 k q) = ix2 k q := by
    obtain ⟨-, -, -, -, -, -, e0, e1, -⟩ := block_indices t
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  rw [e]

/-- The block of `WsT` is the whole matrix at every point. -/
theorem read_ws (A : Buf (Elt Ideal) ((c : Thread nD τ).loc (Pipeline.arrRef spec0 4))) (k q : Fin 128) :
    ((cfg0.win 4).blk t).view.read (Elt Ideal) A (ix2 k q) = A (ix2 k q) := by
  show A (((cfg0.win 4).blk t).view.emb (ix2 k q)) = A (ix2 k q)
  have e : ((cfg0.win 4).blk t).view.emb (ix2 k q) = ix2 k q := by
    obtain ⟨-, -, -, -, -, -, -, -, e0, e1, -⟩ := block_indices t
    funext a; apply Fin.ext
    match a with
    | ⟨0, _⟩ => show win0_4.index t (0 : Fin 2) * 128 + 1 * k.val = k.val; omega
    | ⟨1, _⟩ => show win0_4.index t (1 : Fin 2) * 128 + 1 * q.val = q.val; omega
  rw [e]

/-- The block of the bias row is the whole row at every point. -/
theorem read_b (A : Buf (Elt Ideal) ((c : Thread nD τ).loc (Pipeline.arrRef spec0 5))) (u : Fin 1) (q : Fin 128) :
    ((cfg0.win 5).blk t).view.read (Elt Ideal) A (ix2 u q) = A (ix2 u q) := by
  show A (((cfg0.win 5).blk t).view.emb (ix2 u q)) = A (ix2 u q)
  have e : ((cfg0.win 5).blk t).view.emb (ix2 u q) = ix2 u q := by
    obtain ⟨-, -, -, -, -, -, -, -, -, -, e0, e1, -⟩ := block_indices t
    funext a; apply Fin.ext
    match a with
    | ⟨0, _⟩ => show win0_5.index t (0 : Fin 2) * 1 + 1 * u.val = u.val; omega
    | ⟨1, _⟩ => show win0_5.index t (1 : Fin 2) * 128 + 1 * q.val = q.val; omega
  rw [e]

/-- THE BLOCK WRITTEN AT POINT `t`, for ANY contents of the six operand arrays: the body's stored value of the six
    blocks at `t` is block `t` of `outOf` of the arrays. -/
theorem block_eq (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (A4 : Buf (Elt Ideal) ((c : Thread nD τ).loc (Pipeline.arrRef spec0 4)))
    (A5 : Buf (Elt Ideal) ((c : Thread nD τ).loc (Pipeline.arrRef spec0 5))) :
    (cfg0.win 6).cut (grid0.coords t) (out0_6 (F := Ideal) (((cfg0.win 0).blk t).view.read (Elt Ideal) A0)
        (((cfg0.win 1).blk t).view.read (Elt Ideal) A1) (((cfg0.win 2).blk t).view.read (Elt Ideal) A2)
        (((cfg0.win 3).blk t).view.read (Elt Ideal) A3) (((cfg0.win 4).blk t).view.read (Elt Ideal) A4)
        (((cfg0.win 5).blk t).view.read (Elt Ideal) A5))
      = ((cfg0.win 6).blk t).view.read (Elt Ideal) (outOf A0 A1 A2 A3 A4 A5) := by
  unfold out0_6
  rw [View.canon_unit_zero zero_offsets]
  simp only [View.ld_unit_zero (S := S2000x128) zero_offsets, View.ld_unit_zero (S := S128x128) zero_offsets,
    View.ld_unit_zero (S := S1x128) zero_offsets, View.ld_unit_zero (S := S2000x1) zero_offsets]
  funext y
  obtain ⟨p, q, rfl⟩ : ∃ (p : Fin 2000) (q : Fin 128), y = ix2 p q := ⟨y 0, y 1, eq_ix2 y⟩
  have hN : grid0.N = 25 := N_0
  have ht : t.val < 25 := lt_of_lt_of_eq t.isLt N_0
  obtain ⟨-, -, -, -, -, -, -, -, -, -, -, -, e0, e1⟩ := block_indices t
  let r : Fin 50000 := ⟨t.val * 2000 + p.val, by have := p.isLt; omega⟩
  have er : ((cfg0.win 6).blk t).view.emb (ix2 p q) = ix2 r q := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  show k0_pay1 (F := Ideal) (((cfg0.win 0).blk t).view.read (Elt Ideal) A0) (((cfg0.win 1).blk t).view.read (Elt Ideal) A1)
      (((cfg0.win 4).blk t).view.read (Elt Ideal) A4) (((cfg0.win 3).blk t).view.read (Elt Ideal) A3)
      (((cfg0.win 5).blk t).view.read (Elt Ideal) A5) (((cfg0.win 2).blk t).view.read (Elt Ideal) A2) (ix2 p q)
    = outOf A0 A1 A2 A3 A4 A5 (((cfg0.win 6).blk t).view.emb (ix2 p q))
  rw [er]
  show _ = outAt A0 A1 A2 A3 A4 A5 r q
  exact block_value (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) (((cfg0.win 5).blk t).view.read (Elt Ideal) A5)
    A0 A1 A2 A3 A4 A5 p q r
    (fun k => read_h c t A0 p k r rfl) (fun k => read_sums c t A1 p k r rfl) (read_inv c t A2 p 0 r rfl)
    (fun k => read_we c t A3 k q) (fun k => read_ws c t A4 k q) (read_b c t A5 0 q)

end Reads

/-- WHAT POINT `t` WRITES BACK is block `t` of `outOf` of the operand arrays as the call finds them. -/
theorem flushed_eq (c : Dev nD) (t : Fin cfg0.N) :
    (dats m 0 c).flushed 6 t = ((cfg0.win 6).blk t).view.read (Elt Ideal)
      (outOf (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  rw [Value.flushed6]
  exact block_eq c t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- An index of the result is in point `t`'s block iff each coordinate is in the block's range on its axis. -/
theorem mem_block (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v26).slice (win0_6.rect t)).set ↔ _
  rw [View.set_slice_whole, Rect.mem_set_unit]
  exact Iff.rfl

/-- THE COVER: row `r` of the result lies in the block written at point `r / 2000`. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; omega⟩
  have htv : t.val = (i 0).val / 2000 := rfl
  obtain ⟨-, -, -, -, -, -, -, -, -, -, -, -, e0, e1⟩ := block_indices t
  refine ⟨t, flush0_6 t, ?_⟩
  rw [mem_block]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-- THE RESULT ARRAY after the run is `outOf` of the operand arrays. -/
theorem final (c : Dev nD) : (dats m 0 c).arrAt 6 cfg0.N
    = outOf (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5)) :=
  (dats m 0 c).arrAt_eq_of_cover 6 _ (fun t _ => flushed_eq m c t) covered

/-- The run, with the result array named. -/
theorem run : θ_run defs (onTc (τ := τ) (main (F := Ideal))) ⟨m, fun _ => 0, ρ⟩ fun r => ∀ c : Dev nD,
      r.2.mem ((c : Thread nD τ).loc main_v26)
        = outOf (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Hand

end
-- ==== Proof.HostSide.lean ====
/-
  The arrays the fused call is launched on, as terms of the program's arguments.

  Before the call the program computes, from `h`, `src`, `dst`, `W_edge`, `W_self`, `b_self`:
  the rounded `h`; the per-node sum of the gathered rows of the rounded `h` (gather by `src`, negative numbers wrapped
  once by the node count; accumulate by `dst`); the inverse of the degree clamped below by one, as a column; the two
  transposed, rounded weight matrices; and the bias as a row.
-/
import proofs.«103451_j35192962023430_2_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem
  Idealize.ShloMosaic.StableHlo

variable {F : FTy → Type} [FloatOps F]

/-- The gather's row numbers: `src`, a negative number wrapped once by the node count, as a column. -/
def srcRows (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The scatter's row numbers: `dst` as a column. -/
def dstRows (dst : IVec S800000 32) : IVec S800000x1 32 :=
  broadcastInDim S800000x1 ![0] bcast_S800000_S800000x1_0 dst

/-- The in-degree of every node (the accumulating scatter of ones by `dst`), clamped below by one. -/
def degree (dst : IVec S800000 32) : FVec F S50000 .f32 :=
  maximumf (Host.scatterAdd scatter_S50000_S800000x1_S800000_n_0_0_1
      (broadcastInDim S50000 ![] bcast_S_S50000 (constant S_ .f32 0x00000000#32)) (dstRows dst)
      (broadcastInDim S800000 ![] bcast_S_S800000 (constant S_ .f32 0x3F800000#32)))
    (broadcastInDim S50000 ![] bcast_S_S50000 (constant S_ .f32 0x3F800000#32))

variable (m : (ℓ : Loc nD τ sig) → Buf (Elt F) ℓ)

/-- Operand 0: `h` rounded. -/
theorem V_h (c : Dev nD) : (V m c main_v5 : (⟨S50000x128, .bf16⟩ : BufTy).Contents (Elt F))
    = truncf .bf16 (m ((c : Thread nD τ).loc main_arg0)) bitsLt_bf16_f32 := by
  dsimp only [Gen.V, Gen.hostOps0]; after_results_simp <;> rfl

set_option maxHeartbeats 2000000 in
/-- Operand 1: the per-node sum of the gathered rows. -/
theorem V_sums (c : Dev nD) : (V m c main_v16 : (⟨S50000x128, .f32⟩ : BufTy).Contents (Elt F))
    = Host.scatterAdd scatter_S50000x128_S800000x1_S800000x128_1_0_0_1
        (broadcastInDim S50000x128 ![] bcast_S_S50000x128 (constant S_ .f32 0x00000000#32))
        (dstRows (m ((c : Thread nD τ).loc main_arg2)))
        (extf .f32 (Host.gather gather_S50000x128_S800000x1_S800000x128_1_0_n_n_0_1_1128
          (truncf .bf16 (m ((c : Thread nD τ).loc main_arg0)) bitsLt_bf16_f32)
          (srcRows (m ((c : Thread nD τ).loc main_arg1)))) bitsLt_bf16_f32) := by
  dsimp only [Gen.V, Gen.hostOps0]; after_results_simp <;> rfl

set_option maxHeartbeats 2000000 in
/-- Operand 2: the inverse clamped degree, as a column. -/
theorem V_inv (c : Dev nD) : (V m c main_v25 : (⟨S50000x1, .f32⟩ : BufTy).Contents (Elt F))
    = shapeCast S50000x1 (Host.divf (broadcastInDim S50000 ![] bcast_S_S50000 (constant S_ .f32 0x3F800000#32))
        (degree (F := F) (m ((c : Thread nD τ).loc main_arg2)))) shapeCasts_S50000_S50000x1 := by
  dsimp only [Gen.V, Gen.hostOps0]; after_results_simp <;> rfl

/-- Operand 3: `W_edge` transposed and rounded. -/
theorem V_we (c : Dev nD) : (V m c main_v1 : (⟨S128x128, .bf16⟩ : BufTy).Contents (Elt F))
    = truncf .bf16 (transpose S128x128 [1, 0] (m ((c : Thread nD τ).loc main_arg3)) transposes_S128x128_S128x128_1_0)
        bitsLt_bf16_f32 := by
  dsimp only [Gen.V, Gen.hostOps0]; after_results_simp <;> rfl

/-- Operand 4: `W_self` transposed and rounded. -/
theorem V_ws (c : Dev nD) : (V m c main_v3 : (⟨S128x128, .bf16⟩ : BufTy).Contents (Elt F))
    = truncf .bf16 (transpose S128x128 [1, 0] (m ((c : Thread nD τ).loc main_arg4)) transposes_S128x128_S128x128_1_0)
        bitsLt_bf16_f32 := by
  dsimp only [Gen.V, Gen.hostOps0]; after_results_simp <;> rfl

/-- Operand 5: the bias as a row. -/
theorem V_b (c : Dev nD) : (V m c main_v4 : (⟨S1x128, .f32⟩ : BufTy).Contents (Elt F))
    = shapeCast S1x128 (m ((c : Thread nD τ).loc main_arg5)) shapeCasts_S128_S1x128 := by
  dsimp only [Gen.V, Gen.hostOps0]; after_results_simp <;> rfl

end Cert.KernelIdeal.Hand

end
-- ==== Proof.LibRowScatter.lean ====
/-
  Row gather and row scatter-add of a matrix, read at an index.

  `x[idx]` of a matrix `x : [N, D]` at a column of row numbers `idx : [E, 1]` lowers to a gather whose result row `e` is
  row `idx[e, 0]` of `x`, the row number read signed and clamped into `[0, N - 1]`. Its transpose, the accumulating
  scatter `zeros.at[idx].add(u)` of update rows `u : [E, D]` (a segment sum), adds update row `e` onto operand row
  `idx[e, 0]` when that number, read signed and NOT clamped, is a row of the operand, and drops it otherwise. Read at
  an index at the ideal values: entry `(n, k)` of the scatter is the operand's entry plus the sum of `u (e, k)` over
  the update rows `e` whose row number is `n`.
-/
import Idealize.ShloMosaic.PureOps.Ideal
import Idealize.ShloMosaic.Lib.ValueIdx

noncomputable section

open scoped BigOperators

namespace Idealize.ShloMosaic.ValueIdx

open Idealize.ShloMosaic

variable {α : Type}

/-! ## The gather of rows -/

/-- The dimension numbers of a gather of whole rows: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row of the operand that result row `e` reads: the start index, signed, clamped into `[0, N - 1]`. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER READ AT `(e, c)`: the operand at row `gatherRow idx e`, column `c`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N E D wf) x idx (ix2 e c) = x (ix2 (gatherRow hN idx e) c) := by
  unfold Host.gather
  refine congrArg x ?_
  funext a
  refine Fin.ext ?_
  match a with
  | ⟨0, _⟩ =>
    show (rowGatherDims N E D wf).start (ix2 e c) idx 0 + (rowGatherDims N E D wf).batchCoord (ix2 e c) 0
      + (rowGatherDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e c) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E D wf).start (ix2 e c) idx 1 + (rowGatherDims N E D wf).batchCoord (ix2 e c) 1
      + (rowGatherDims N E D wf).offCoord (ix2 e c) 1 = c.val
    rw [GatherDims.batchCoord_eq_zero _ _ _ List.not_mem_nil]
    have hs : (rowGatherDims N E D wf).start (ix2 e c) idx 1 = 0 := by
      unfold GatherDims.start
      rw [dif_neg (show ¬ (1 : Fin 2) ∈ ([0] : List (Fin 2)) by decide)]
    rw [hs]
    simp only [Nat.add_zero, Nat.zero_add]
    rfl

/-! ## The accumulating scatter of rows -/

/-- The dimension numbers of a scatter of whole rows: operand `[N, D]`, scatter indices `[E, 1]`, updates `[E, D]`. -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter

variable {N E D w : Nat} (wf : ScatterDims.WF ⟨2, ![N, D]⟩ ⟨2, ![E, 1]⟩ ⟨2, ![E, D]⟩ [1] [0] [0] 1)
  (idx : IVec ⟨2, ![E, 1]⟩ w) (e : Fin E) (c : Fin D)

/-- Update `(e, c)` starts, on the row axis, at its row number read signed … -/
theorem rowScatter_start0 : (rowScatterDims N E D wf).start (ix2 e c) idx 0 = (idx (ix2 e (0 : Fin 1))).toInt := by
  unfold ScatterDims.start
  rw [dif_pos (show (0 : Fin 2) ∈ (rowScatterDims N E D wf).scatterDimsToOperandDims from List.mem_singleton.mpr rfl)]
  have hsi : (rowScatterDims N E D wf).siIdx (ix2 e c) ⟨List.idxOf (0 : Fin 2) (rowScatterDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
/-- … and on the column axis at zero; -/
theorem rowScatter_start1 : (rowScatterDims N E D wf).start (ix2 e c) idx 1 = 0 := by
  unfold ScatterDims.start
  rw [dif_neg (show ¬ (1 : Fin 2) ∈ ([0] : List (Fin 2)) by decide)]
/-- The operand's axes that take a window coordinate are those not inserted: here the column axis alone. -/
theorem rowScatter_mem_sKept (a : Fin 2) : a ∈ (rowScatterDims N E D wf).sKept ↔ a ≠ 0 := by
  simp [ScatterDims.sKept, Shape.kept, List.mem_filter, List.mem_finRange]
/-- its window coordinate is zero on the row axis … -/
theorem rowScatter_window0 : (rowScatterDims N E D wf).window (ix2 e c) 0 = 0 := by
  unfold ScatterDims.window
  rw [dif_neg (fun h => ((rowScatter_mem_sKept wf 0).mp h) rfl)]
/-- … and its own column on the column axis. -/
theorem rowScatter_window1 : (rowScatterDims N E D wf).window (ix2 e c) 1 = c.val := by
  unfold ScatterDims.window
  rw [dif_pos ((rowScatter_mem_sKept wf 1).mpr (by decide))]
  rfl

/-- WHERE AN UPDATE LANDS: update `(e, c)` lands on operand entry `(n, k)` exactly when its row number, read signed, is
    `n` and its column is `k`. -/
theorem rowScatter_resultIdx?_eq_some_iff (n : Fin N) (k : Fin D) :
    (rowScatterDims N E D wf).resultIdx? (ix2 e c) idx = some (ix2 n k)
      ↔ (idx (ix2 e (0 : Fin 1))).toInt = (n.val : Int) ∧ c = k := by
  have hn := n.isLt
  have hc := c.isLt
  have hk := k.isLt
  have s0 : (rowScatterDims N E D wf).start (ix2 e c) idx 0 + ((rowScatterDims N E D wf).window (ix2 e c) 0 : Int)
      = (idx (ix2 e (0 : Fin 1))).toInt := by
    rw [rowScatter_start0, rowScatter_window0]; simp
  have s1 : (rowScatterDims N E D wf).start (ix2 e c) idx 1 + ((rowScatterDims N E D wf).window (ix2 e c) 1 : Int)
      = (c.val : Int) := by
    rw [rowScatter_start1, rowScatter_window1]; simp
  unfold ScatterDims.resultIdx?
  split
  · rename_i h
    have h00 : 0 ≤ (rowScatterDims N E D wf).start (ix2 e c) idx 0 + ((rowScatterDims N E D wf).window (ix2 e c) 0 : Int)
        ∧ (rowScatterDims N E D wf).start (ix2 e c) idx 0 + ((rowScatterDims N E D wf).window (ix2 e c) 0 : Int) < (N : Int) := h 0
    rw [s0] at h00
    constructor
    · intro heq
      have heq' := Option.some.inj heq
      have e0 : ((rowScatterDims N E D wf).start (ix2 e c) idx 0 + ((rowScatterDims N E D wf).window (ix2 e c) 0 : Int)).toNat
          = n.val := congrArg Fin.val (congrFun heq' 0)
      have e1 : ((rowScatterDims N E D wf).start (ix2 e c) idx 1 + ((rowScatterDims N E D wf).window (ix2 e c) 1 : Int)).toNat
          = k.val := congrArg Fin.val (congrFun heq' 1)
      rw [s0] at e0
      rw [s1] at e1
      exact ⟨by omega, Fin.ext (by omega)⟩
    · rintro ⟨hr, rfl⟩
      refine congrArg some ?_
      funext a
      refine Fin.ext ?_
      match a with
      | ⟨0, _⟩ =>
        show ((rowScatterDims N E D wf).start (ix2 e c) idx 0 + ((rowScatterDims N E D wf).window (ix2 e c) 0 : Int)).toNat = n.val
        rw [s0]; omega
      | ⟨1, _⟩ =>
        show ((rowScatterDims N E D wf).start (ix2 e c) idx 1 + ((rowScatterDims N E D wf).window (ix2 e c) 1 : Int)).toNat = c.val
        rw [s1]; omega
  · rename_i h
    constructor
    · intro heq; exact absurd heq (by simp)
    · rintro ⟨hr, rfl⟩
      refine absurd (fun a => ?_) h
      match a with
      | ⟨0, _⟩ =>
        show 0 ≤ (rowScatterDims N E D wf).start (ix2 e c) idx 0 + ((rowScatterDims N E D wf).window (ix2 e c) 0 : Int)
          ∧ (rowScatterDims N E D wf).start (ix2 e c) idx 0 + ((rowScatterDims N E D wf).window (ix2 e c) 0 : Int) < (N : Int)
        rw [s0]; omega
      | ⟨1, _⟩ =>
        show 0 ≤ (rowScatterDims N E D wf).start (ix2 e c) idx 1 + ((rowScatterDims N E D wf).window (ix2 e c) 1 : Int)
          ∧ (rowScatterDims N E D wf).start (ix2 e c) idx 1 + ((rowScatterDims N E D wf).window (ix2 e c) 1 : Int) < (D : Int)
        rw [s1]; omega

/-- THE SCATTER READ AT `(n, k)`, at the ideal values: the operand's entry plus the sum of column `k` of the update
    rows whose row number, read signed, is `n`. -/
theorem hostScatterAdd_rows_apply (x : (⟨2, ![N, D]⟩ : Shape).Idx → EReal) (upd : (⟨2, ![E, D]⟩ : Shape).Idx → EReal)
    (n : Fin N) (k : Fin D) :
    Ideal.hostScatterAdd (rowScatterDims N E D wf) x idx upd (ix2 n k)
      = x (ix2 n k) + ∑ e ∈ Finset.univ.filter (fun e : Fin E => (idx (ix2 e (0 : Fin 1))).toInt = (n.val : Int)), upd (ix2 e k) := by
  unfold Ideal.hostScatterAdd
  refine congrArg (x (ix2 n k) + ·) ?_
  rw [Finset.sum_filter, sum_idx2, Finset.sum_filter]
  refine Finset.sum_congr rfl fun e _ => ?_
  simp only [rowScatter_resultIdx?_eq_some_iff]
  by_cases hr : (idx (ix2 e (0 : Fin 1))).toInt = (n.val : Int)
  · simp only [hr, true_and, if_true]
    rw [Finset.sum_ite_eq' Finset.univ k (fun c => upd (ix2 e c))]
    simp
  · simp only [hr, false_and, if_false]
    exact Finset.sum_const_zero

end RowScatter

end Idealize.ShloMosaic.ValueIdx

end
-- ==== Proof.LibSegmentLinear.lean ====
/-
  A segment sum commutes with a right matrix product, on finite entries.

  Let `h : [N, K]` and `W : [K, D]` have real (finite) entries, `r : E → N` pick a row of `h` for each edge `e`, and let the
  accumulating row scatter send edge `e` to the row its scatter index names. Summing the picked rows per target row and
  then multiplying by `W`,
      ∑ k, (∑ e → n, h (r e, k)) * W (k, j),
  equals multiplying every row of `h` by `W` first and summing the picked product rows per target row,
      ∑ e → n, ∑ k, h (r e, k) * W (k, j):
  the distributive law and an exchange of two finite sums, valid on the reals (the extended reals do not distribute
  over sums that meet an infinity, which is why finiteness is asked).
-/
import Idealize.ShloMosaic.PureOps.Ideal
import Idealize.ShloMosaic.Lib.ValueIdx
import proofs.«103451_j35192962023430_2_alg».proof.Proof.LibRowScatter

noncomputable section

open scoped BigOperators

namespace Idealize.ShloMosaic.ValueIdx

open Idealize.ShloMosaic

/-- The coercion of the reals into the extended reals commutes with finite sums. -/
theorem ereal_coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange, over abstract finite index types: for real-valued `a` and `w`,
    `∑ k, (∑ e ∈ S, a e k) * w k = ∑ e ∈ S, ∑ k, a e k * w k` in the extended reals. -/
theorem sum_mul_sum_comm_of_real {ι κ : Type*} [Fintype κ] (S : Finset ι) (a : ι → κ → EReal) (w : κ → EReal)
    (ha : ∀ e k, ∃ r : ℝ, a e k = (r : EReal)) (hw : ∀ k, ∃ r : ℝ, w k = (r : EReal)) :
    ∑ k, (∑ e ∈ S, a e k) * w k = ∑ e ∈ S, ∑ k, a e k * w k := by
  choose a' ha' using ha
  choose w' hw' using hw
  simp only [ha', hw', ← ereal_coe_finset_sum, ← EReal.coe_mul]
  refine congrArg _ ?_
  rw [Finset.sum_comm]
  exact Finset.sum_congr rfl fun k _ => Finset.sum_mul _ _ _

/-- SEGMENT SUM THEN PRODUCT IS PRODUCT THEN SEGMENT SUM. `Z` is the zero array the scatter accumulates into. -/
theorem scatter_gather_matmul_comm {N E K D w : Nat} (hN : 0 < N)
    (wfSK : ScatterDims.WF ⟨2, ![N, K]⟩ ⟨2, ![E, 1]⟩ ⟨2, ![E, K]⟩ [1] [0] [0] 1)
    (wfSD : ScatterDims.WF ⟨2, ![N, D]⟩ ⟨2, ![E, 1]⟩ ⟨2, ![E, D]⟩ [1] [0] [0] 1)
    (wfGK : GatherDims.WF ⟨2, ![N, K]⟩ ⟨2, ![E, 1]⟩ ⟨2, ![E, K]⟩ [1] [0] [] [0] [] 1 ![1, K])
    (wfGD : GatherDims.WF ⟨2, ![N, D]⟩ ⟨2, ![E, 1]⟩ ⟨2, ![E, D]⟩ [1] [0] [] [0] [] 1 ![1, D])
    (ZK : (⟨2, ![N, K]⟩ : Shape).Idx → EReal) (ZD : (⟨2, ![N, D]⟩ : Shape).Idx → EReal)
    (hZK : ∀ i, ZK i = 0) (hZD : ∀ i, ZD i = 0)
    (h : (⟨2, ![N, K]⟩ : Shape).Idx → EReal) (W : (⟨2, ![K, D]⟩ : Shape).Idx → EReal)
    (hh : ∀ i, ∃ r : ℝ, h i = (r : EReal)) (hW : ∀ i, ∃ r : ℝ, W i = (r : EReal))
    (didx ridx : IVec ⟨2, ![E, 1]⟩ w) (n : Fin N) (j : Fin D) :
    ∑ k : Fin K, Ideal.hostScatterAdd (rowScatterDims N E K wfSK) ZK didx
        (Host.gather (rowGatherDims N E K wfGK) h ridx) (ix2 n k) * W (ix2 k j)
      = Ideal.hostScatterAdd (rowScatterDims N E D wfSD) ZD didx
        (Host.gather (rowGatherDims N E D wfGD) (fun i => ∑ k : Fin K, h (ix2 (i 0) k) * W (ix2 k (i 1))) ridx) (ix2 n j) := by
  simp only [hostScatterAdd_rows_apply, gather_rows_apply hN, hZK, hZD, zero_add]
  exact sum_mul_sum_comm_of_real _ (fun e k => h (ix2 (gatherRow hN ridx e) k)) (fun k => W (ix2 k j))
    (fun e k => hh _) (fun k => hW _)

end Idealize.ShloMosaic.ValueIdx

end
-- ==== Proof.EdgeMean.lean ====
/-
  The law that joins the two programs, at one entry (n, j) of the result.

  One side aggregates the raw rows first: it sums the gathered rows of `h` per target node, multiplies the per-node sum
  by `WeT`, and scales by a precomputed inverse degree `1 / d n`. The other side multiplies every row of `h` by `WeT`
  first, sums the gathered product rows per target node, and divides by `d n`. On finite `h` and `WeT` the two
  aggregates agree (a segment sum commutes with the product), and for `d n ≠ 0` multiplying by `1 / d n` is dividing by
  `d n` on every extended real.
-/
import proofs.«103451_j35192962023430_2_alg».proof.Proof.LibSegmentLinear

noncomputable section

open scoped BigOperators

namespace Cert.EdgeMean

open Idealize.ShloMosaic Idealize.ShloMosaic.ValueIdx

/-- Scaling by the inverse of a nonzero `d` (computed as the quotient `1 / d`) is dividing by `d`. -/
theorem mul_one_div_eq_div (x d : EReal) (hd : d ≠ 0) : x * Ideal.div 1 d = Ideal.div x d := by
  unfold Ideal.div
  rw [if_neg hd, if_neg hd, one_mul]

/-- A maximum with one is not zero. -/
theorem max_one_ne_zero (x : EReal) : max x 1 ≠ 0 := by
  intro h
  have h1 : (1 : EReal) ≤ max x 1 := le_max_right _ _
  rw [h] at h1
  exact absurd h1 (by norm_num)

/-- THE TWO SIDES AT (n, j). `SR` is the per-node sum of gathered raw rows, `SM` the per-node sum of gathered product
    rows; `inv n` is the inverse degree as the first side computes it, `d n` the degree the second divides by. -/
theorem sides_agree {N E K D w : Nat} (hN : 0 < N)
    (wfSK : ScatterDims.WF ⟨2, ![N, K]⟩ ⟨2, ![E, 1]⟩ ⟨2, ![E, K]⟩ [1] [0] [0] 1)
    (wfSD : ScatterDims.WF ⟨2, ![N, D]⟩ ⟨2, ![E, 1]⟩ ⟨2, ![E, D]⟩ [1] [0] [0] 1)
    (wfGK : GatherDims.WF ⟨2, ![N, K]⟩ ⟨2, ![E, 1]⟩ ⟨2, ![E, K]⟩ [1] [0] [] [0] [] 1 ![1, K])
    (wfGD : GatherDims.WF ⟨2, ![N, D]⟩ ⟨2, ![E, 1]⟩ ⟨2, ![E, D]⟩ [1] [0] [] [0] [] 1 ![1, D])
    (ZK : (⟨2, ![N, K]⟩ : Shape).Idx → EReal) (ZD : (⟨2, ![N, D]⟩ : Shape).Idx → EReal)
    (hZK : ∀ i, ZK i = 0) (hZD : ∀ i, ZD i = 0)
    (h : (⟨2, ![N, K]⟩ : Shape).Idx → EReal) (W : (⟨2, ![K, D]⟩ : Shape).Idx → EReal)
    (hh : ∀ i, ∃ r : ℝ, h i = (r : EReal)) (hW : ∀ i, ∃ r : ℝ, W i = (r : EReal))
    (didx ridx : IVec ⟨2, ![E, 1]⟩ w) (self : EReal) (d : EReal) (hd : d ≠ 0) (n : Fin N) (j : Fin D) :
    max (self + (∑ k : Fin K, Ideal.hostScatterAdd (rowScatterDims N E K wfSK) ZK didx
            (Host.gather (rowGatherDims N E K wfGK) h ridx) (ix2 n k) * W (ix2 k j)) * Ideal.div 1 d) 0
      = max (self + Ideal.div (Ideal.hostScatterAdd (rowScatterDims N E D wfSD) ZD didx
            (Host.gather (rowGatherDims N E D wfGD) (fun i => ∑ k : Fin K, h (ix2 (i 0) k) * W (ix2 k (i 1))) ridx)
            (ix2 n j)) d) 0 := by
  rw [scatter_gather_matmul_comm hN wfSK wfSD wfGK wfGD ZK ZD hZK hZD h W hh hW didx ridx n j, mul_one_div_eq_div _ _ hd]

end Cert.EdgeMean

end
-- ==== Proof.Bridge.lean ====
/-
  The reference's result is the fused call's function of its operand arrays.

  Both programs compute, at entry (n, j), the maximum with zero of a SELF term `(∑ k, h (n, k) * WsT (k, j)) + b j` plus an
  EDGE term. The kernel's edge term is `(∑ k, S (n, k) * WeT (k, j)) * (1 / d n)` with `S` the per-node sum of the gathered
  rows of `h`; the reference's is `T (n, j) / d n` with `T` the per-node sum of the gathered rows of `h · WeT`. Here both
  sides are brought to those two forms over the SAME gather rows, scatter rows, degree `d` and transposed weights, and
  the law of Proof/EdgeMean.lean joins them (it uses that `h` and `W_edge` are finite, and that `d n ≥ 1` is not zero).
-/
import proofs.«103451_j35192962023430_2_alg».proof.Proof.Spec
import proofs.«103451_j35192962023430_2_alg».proof.Proof.HostSide
import proofs.«103451_j35192962023430_2_alg».proof.Proof.EdgeMean
import proofs.«103451_j35192962023430_2_alg».proof.Proof.LibColumn
import proofs.«103451_j35192962023430_2_alg».proof.Proof.Gen.ReferenceIdeal.Read
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem
  Idealize.ShloMosaic.StableHlo Idealize.ShloMosaic.ValueIdx

/-- The f32 pattern of one is the extended real one. -/
theorem ofBits_one_f32 : Ideal.ofBits .f32 0x3F800000#32 = 1 := by
  simp [Ideal.ofBits, Ideal.ieee]
  rw [← EReal.coe_mul, ← EReal.coe_one]
  refine congrArg _ ?_
  norm_num

/-- The zero array the scatters accumulate into. -/
abbrev zeros : S50000x128.Idx → EReal :=
  broadcastInDim S50000x128 ![] bcast_S_S50000x128 (constant (F := Ideal) S_ .f32 0x00000000#32)

theorem zeros_apply (i : S50000x128.Idx) : zeros i = 0 := by
  unfold zeros
  rw [broadcastInDim_apply _ bcast_S_S50000x128 _ i (fun a => a.elim0) (fun a => a.elim0), constant_apply,
    Ideal.ofBits_zero_f32]

/-- The transposed weights. -/
abbrev tr (x : S128x128.Idx → EReal) : S128x128.Idx → EReal :=
  transpose S128x128 [1, 0] x transposes_S128x128_S128x128_1_0

/-- The splat of ones the inverse degree divides. -/
theorem ones_apply (n : Fin 50000) :
    broadcastInDim S50000 ![] bcast_S_S50000 (constant (F := Ideal) S_ .f32 0x3F800000#32) (ix1 n) = 1 := by
  rw [broadcastInDim_apply _ bcast_S_S50000 _ (ix1 n) (fun a => a.elim0) (fun a => a.elim0), constant_apply, ofBits_one_f32]

/-- The clamped degree is at least one, so it is not zero. -/
theorem degree_ne_zero (x2 : IVec S800000 32) (n : Fin 50000) : degree (F := Ideal) x2 (ix1 n) ≠ 0 := by
  unfold degree
  rw [maximumf_apply, ones_apply]
  exact Cert.EdgeMean.max_one_ne_zero _

/-- The host's quotient at an index, at the ideal values. -/
theorem hostDivf_apply {s : Shape} (a b : FVec Ideal s .f32) (i : s.Idx) :
    Host.divf (F := Ideal) a b i = Ideal.div (a i) (b i) := rfl

/-- The inverse-degree column at row `n` is the quotient `1 / d n`. -/
theorem inv_apply (x2 : IVec S800000 32) (n : Fin 50000) :
    shapeCast S50000x1 (Host.divf (F := Ideal) (broadcastInDim S50000 ![] bcast_S_S50000 (constant (F := Ideal) S_ .f32 0x3F800000#32))
        (degree (F := Ideal) x2)) shapeCasts_S50000_S50000x1 (ix2 n (0 : Fin 1))
      = Ideal.div 1 (degree (F := Ideal) x2 (ix1 n)) := by
  rw [shapeCast_a_a1_apply, hostDivf_apply, ones_apply]

/-- The per-node sum of gathered rows of an array `g`, by the program's gather rows and scatter rows. -/
abbrev segSum (x1 x2 : IVec S800000 32) (g : S50000x128.Idx → EReal) : S50000x128.Idx → EReal :=
  Ideal.hostScatterAdd (rowScatterDims 50000 800000 128 scatter_S50000x128_S800000x1_S800000x128_1_0_0_1_wf) zeros (dstRows x2)
    (Host.gather (rowGatherDims 50000 800000 128 gather_S50000x128_S800000x1_S800000x128_1_0_n_n_0_1_1128_wf) g (srcRows x1))

/-- The program's scatter dimension numbers are the row scatter's. -/
theorem scatterDims_eq : scatter_S50000x128_S800000x1_S800000x128_1_0_0_1
    = rowScatterDims 50000 800000 128 scatter_S50000x128_S800000x1_S800000x128_1_0_0_1_wf := rfl
/-- The program's gather dimension numbers are the row gather's. -/
theorem gatherDims_eq : gather_S50000x128_S800000x1_S800000x128_1_0_n_n_0_1_1128
    = rowGatherDims 50000 800000 128 gather_S50000x128_S800000x1_S800000x128_1_0_n_n_0_1_1128_wf := rfl

/-- The host's accumulating scatter at the ideal values is the exact sum, whatever its operands. -/
theorem hostScatterAdd_eq {s si u : Shape} {w : Nat} (d : ScatterDims s si u) (x : s.Idx → EReal) (idx : IVec si w)
    (upd : u.Idx → EReal) : Host.scatterAdd (F := Ideal) (φ := .f32) d x idx upd = Ideal.hostScatterAdd d x idx upd := rfl

/-- A rounding to a narrower format is the identity at the ideal values … -/
theorem truncf_id {s : Shape} (a : s.Idx → EReal) (h : FTy.bits .bf16 < FTy.bits .f32) :
    (truncf (F := Ideal) (φ := .f32) .bf16 a h : s.Idx → EReal) = a := rfl
/-- … and so is the widening back. -/
theorem extf_id {s : Shape} (a : s.Idx → EReal) (h : FTy.bits .bf16 < FTy.bits .f32) :
    (extf (F := Ideal) (φ := .bf16) .f32 a h : s.Idx → EReal) = a := rfl

/-- THE KERNEL'S SIDE at (n, j), over the program's arguments. -/
theorem kernel_normal (x0 : S50000x128.Idx → EReal) (x1 x2 : IVec S800000 32) (x3 x4 : S128x128.Idx → EReal)
    (x5 : S128.Idx → EReal) (n : Fin 50000) (j : Fin 128) :
    outAt (truncf (F := Ideal) (φ := .f32) .bf16 x0 bitsLt_bf16_f32)
        (Host.scatterAdd (F := Ideal) (φ := .f32) scatter_S50000x128_S800000x1_S800000x128_1_0_0_1 zeros (dstRows x2)
          (extf (F := Ideal) (φ := .bf16) .f32 (Host.gather gather_S50000x128_S800000x1_S800000x128_1_0_n_n_0_1_1128
            (truncf (F := Ideal) (φ := .f32) .bf16 x0 bitsLt_bf16_f32) (srcRows x1)) bitsLt_bf16_f32))
        (shapeCast S50000x1 (Host.divf (F := Ideal) (broadcastInDim S50000 ![] bcast_S_S50000 (constant (F := Ideal) S_ .f32 0x3F800000#32))
          (degree (F := Ideal) x2)) shapeCasts_S50000_S50000x1)
        (truncf (F := Ideal) (φ := .f32) .bf16 (tr x3) bitsLt_bf16_f32)
        (truncf (F := Ideal) (φ := .f32) .bf16 (tr x4) bitsLt_bf16_f32)
        (shapeCast S1x128 x5 shapeCasts_S128_S1x128) n j
      = max (((∑ k : Fin 128, x0 (ix2 n k) * tr x4 (ix2 k j)) + x5 (ix1 j))
          + (∑ k : Fin 128, segSum x1 x2 x0 (ix2 n k) * tr x3 (ix2 k j)) * Ideal.div 1 (degree (F := Ideal) x2 (ix1 n))) 0 := by
  rw [truncf_id, truncf_id, truncf_id, extf_id, hostScatterAdd_eq, scatterDims_eq, gatherDims_eq]
  unfold outAt
  rw [inv_apply, shapeCast_a_1a_apply]

/-- The reference's product rows: row `i 0` of `h` times `WeT`, at column `i 1`. -/
theorem ref_msg_eq (x0 : S50000x128.Idx → EReal) (x3 : S128x128.Idx → EReal) :
    Cert.ReferenceIdeal.Read.val_main_v1 (F := Ideal) x0 x3
      = fun i => ∑ k : Fin 128, x0 (ix2 (i 0) k) * tr x3 (ix2 k (i 1)) := by
  funext i
  rw [Cert.ReferenceIdeal.Read.val_main_v1_apply]
  refine Finset.sum_congr rfl fun k _ => ?_
  have el : Cert.ReferenceIdeal.Read.lidx_main_v1 i k = ix2 (i 0) k :=
    funext fun a => Fin.ext (by match a with | ⟨0, _⟩ => rfl | ⟨1, _⟩ => rfl)
  have er : Cert.ReferenceIdeal.Read.ridx_main_v1 i k = ix2 k (i 1) :=
    funext fun a => Fin.ext (by match a with | ⟨0, _⟩ => rfl | ⟨1, _⟩ => rfl)
  rw [el, er]
  rfl

/-- The reference's per-node sum of gathered product rows, over the same gather rows and scatter rows. -/
theorem ref_sums_eq (x0 : S50000x128.Idx → EReal) (x1 x2 : IVec S800000 32) (x3 : S128x128.Idx → EReal) :
    Cert.ReferenceIdeal.Read.val_main_v11 (F := Ideal) x0 x1 x2 x3
      = segSum x1 x2 (fun i => ∑ k : Fin 128, x0 (ix2 (i 0) k) * tr x3 (ix2 k (i 1))) := by
  unfold Cert.ReferenceIdeal.Read.val_main_v11 Cert.ReferenceIdeal.Read.val_main_v8
  rw [ref_msg_eq]
  rfl

/-- The reference's clamped degree is the kernel's. -/
theorem ref_degree_eq (x2 : IVec S800000 32) :
    Cert.ReferenceIdeal.Read.val_main_v17 (F := Ideal) x2 = degree (F := Ideal) x2 := rfl

/-- The reference's transposed `W_self`. -/
theorem ref_ws_eq (x4 : S128x128.Idx → EReal) : Cert.ReferenceIdeal.Read.val_main_v21 (F := Ideal) x4 = tr x4 := rfl

/-- THE REFERENCE'S SIDE at (n, j). -/
theorem reference_normal (x0 : S50000x128.Idx → EReal) (x1 x2 : IVec S800000 32) (x3 x4 : S128x128.Idx → EReal)
    (x5 : S128.Idx → EReal) (n : Fin 50000) (j : Fin 128) :
    Cert.ReferenceIdeal.Read.val_main_v27 (F := Ideal) x0 x1 x2 x3 x4 x5 (ix2 n j)
      = max (((∑ k : Fin 128, x0 (ix2 n k) * tr x4 (ix2 k j)) + x5 (ix1 j))
          + Ideal.div (segSum x1 x2 (fun i => ∑ k : Fin 128, x0 (ix2 (i 0) k) * tr x3 (ix2 k (i 1))) (ix2 n j))
              (degree (F := Ideal) x2 (ix1 n))) 0 := by
  rw [Cert.ReferenceIdeal.Read.val_main_v27_apply, Cert.ReferenceIdeal.Read.val_main_v26_apply,
    Cert.ReferenceIdeal.Read.val_main_v25_apply, Cert.ReferenceIdeal.Read.val_main_v20_apply,
    Cert.ReferenceIdeal.Read.val_main_v22_apply, Cert.ReferenceIdeal.Read.val_main_v24_apply,
    Cert.ReferenceIdeal.Read.val_main_v23_apply, Cert.ReferenceIdeal.Read.val_main_v19_apply,
    Cert.ReferenceIdeal.Read.val_main_v18_apply, Cert.ReferenceIdeal.Read.val_main_call0_v0_apply,
    Cert.ReferenceIdeal.Read.val_main_call0_cst_apply, ref_sums_eq, ref_degree_eq, ref_ws_eq]
  have e1 : ∀ k : Fin 128, Cert.ReferenceIdeal.Read.lidx_main_v22 (ix2 n j) k = ix2 n k := fun k =>
    funext fun a => Fin.ext (by match a with | ⟨0, _⟩ => rfl | ⟨1, _⟩ => rfl)
  have e2 : ∀ k : Fin 128, Cert.ReferenceIdeal.Read.ridx_main_v22 (ix2 n j) k = ix2 k j := fun k =>
    funext fun a => Fin.ext (by match a with | ⟨0, _⟩ => rfl | ⟨1, _⟩ => rfl)
  have e3 : Cert.ReferenceIdeal.Read.idx_main_v23 (Cert.ReferenceIdeal.Read.idx_main_v24 (ix2 n j)) = ix1 j :=
    funext fun a => Fin.ext (by match a with | ⟨0, _⟩ => rfl)
  have e4 : Cert.ReferenceIdeal.Read.idx_main_v18 (Cert.ReferenceIdeal.Read.idx_main_v19 (ix2 n j)) = ix1 n :=
    funext fun a => Fin.ext (by match a with | ⟨0, _⟩ => rfl)
  simp only [e1, e2, e3, e4]
  show max _ (Ideal.ofBits .f32 0x00000000#32) = _
  rw [Ideal.ofBits_zero_f32]
  rfl

/-- THE REFERENCE'S RESULT IS THE FUSED CALL'S FUNCTION of its operand arrays, when those are the arrays the program
    computes from its arguments and `h`, `W_edge` are finite. -/
theorem out_eq_ref (x0 : S50000x128.Idx → EReal) (x1 x2 : IVec S800000 32) (x3 x4 : S128x128.Idx → EReal)
    (x5 : S128.Idx → EReal) (hx0 : ∀ i, ∃ r : ℝ, x0 i = (r : EReal)) (hx3 : ∀ i, ∃ r : ℝ, x3 i = (r : EReal))
    (A0 A1 : S50000x128.Idx → EReal) (A2 : S50000x1.Idx → EReal) (A3 A4 : S128x128.Idx → EReal) (A5 : S1x128.Idx → EReal)
    (h0 : A0 = truncf (F := Ideal) (φ := .f32) .bf16 x0 bitsLt_bf16_f32)
    (h1 : A1 = Host.scatterAdd (F := Ideal) (φ := .f32) scatter_S50000x128_S800000x1_S800000x128_1_0_0_1 zeros (dstRows x2)
          (extf (F := Ideal) (φ := .bf16) .f32 (Host.gather gather_S50000x128_S800000x1_S800000x128_1_0_n_n_0_1_1128
            (truncf (F := Ideal) (φ := .f32) .bf16 x0 bitsLt_bf16_f32) (srcRows x1)) bitsLt_bf16_f32))
    (h2 : A2 = shapeCast S50000x1 (Host.divf (F := Ideal) (broadcastInDim S50000 ![] bcast_S_S50000 (constant (F := Ideal) S_ .f32 0x3F800000#32))
          (degree (F := Ideal) x2)) shapeCasts_S50000_S50000x1)
    (h3 : A3 = truncf (F := Ideal) (φ := .f32) .bf16 (tr x3) bitsLt_bf16_f32)
    (h4 : A4 = truncf (F := Ideal) (φ := .f32) .bf16 (tr x4) bitsLt_bf16_f32)
    (h5 : A5 = shapeCast S1x128 x5 shapeCasts_S128_S1x128) :
    Cert.ReferenceIdeal.Read.val_main_v27 (F := Ideal) x0 x1 x2 x3 x4 x5 = outOf A0 A1 A2 A3 A4 A5 := by
  subst h0 h1 h2 h3 h4 h5
  funext i
  obtain ⟨n, j, rfl⟩ : ∃ (n : Fin 50000) (j : Fin 128), i = ix2 n j := ⟨i 0, i 1, eq_ix2 i⟩
  show _ = outAt _ _ _ _ _ _ n j
  rw [kernel_normal, reference_normal]
  have htr : ∀ i, ∃ r : ℝ, tr x3 i = (r : EReal) := fun i => by
    obtain ⟨a, b, rfl⟩ : ∃ (a b : Fin 128), i = ix2 a b := ⟨i 0, i 1, eq_ix2 i⟩
    rw [show tr x3 (ix2 a b) = x3 (ix2 b a) from transpose_ix2_apply x3 _ a b]
    exact hx3 _
  exact (Cert.EdgeMean.sides_agree (by norm_num) scatter_S50000x128_S800000x1_S800000x128_1_0_0_1_wf
    scatter_S50000x128_S800000x1_S800000x128_1_0_0_1_wf gather_S50000x128_S800000x1_S800000x128_1_0_n_n_0_1_1128_wf
    gather_S50000x128_S800000x1_S800000x128_1_0_n_n_0_1_1128_wf zeros zeros zeros_apply zeros_apply x0 (tr x3) hx0 htr
    (dstRows x2) (srcRows x1) _ _ (degree_ne_zero x2 n) n j).symm

end Cert.KernelIdeal.Hand

end
-- ==== Proof.Finite.lean ====
/-
  Finiteness of the float inputs, read off the precondition.

  The precondition is the conjunction, over the four float arguments, of "every entry's absolute value is below +inf".
  An extended real whose absolute value is below +inf is a real number; so every entry of `h` and of `W_edge` is real,
  which is what the exchange of the segment sum with the edge product needs.
-/
import proofs.«103451_j35192962023430_2_alg».proof.Pre_finite_inputs
import Idealize.ShloMosaic.PureOps.Ideal.Laws
import Idealize.ShloMosaic.Lib.ReduceAll
import Idealize.ShloMosaic.Lib.ValueIdx

noncomputable section

namespace Cert.Pre_finite_inputs.Hand

open Cert.Pre_finite_inputs Idealize.ShloMosaic

/-- An extended real whose absolute value compares below the f32 pattern of +inf is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hinf : Ideal.ofBits .f32 0x7F800000#32 = ⊤ := by simp [Ideal.ofBits, Ideal.ieee]
  change Ideal.cmp .olt (max x (-x)) (Ideal.ofBits .f32 0x7F800000#32) = 1#1 at h
  rw [hinf] at h
  induction x using EReal.rec with
  | bot => simp [Ideal.cmp] at h
  | coe r => exact ⟨r, rfl⟩
  | top => simp [Ideal.cmp] at h

variable [Facts]
open Facts

instance : Subsingleton S_.Idx := ⟨fun a b => funext fun d => d.elim0⟩

/-- Under the precondition every entry of `h` and every entry of `W_edge` is a real number. -/
theorem finite_of_pre (x0 : FVec Ideal S50000x128 .f32) (x1 x2 : IVec S800000 32) (x3 x4 : FVec Ideal S128x128 .f32)
    (x5 : FVec Ideal S128 .f32) (hpre : fn (F := Ideal) x0 x1 x2 x3 x4 x5 = fun _ => 1#1) :
    (∀ i, ∃ r : ℝ, x0 i = (r : EReal)) ∧ (∀ i, ∃ r : ℝ, x3 i = (r : EReal)) := by
  have h := congrFun hpre ValueIdx.ix0
  dsimp only [fn, fn_part1] at h
  obtain ⟨h123, h4⟩ := IntOp.andi_eq_one.1 h
  obtain ⟨h12, h3⟩ := IntOp.andi_eq_one.1 h123
  obtain ⟨h1, h2⟩ := IntOp.andi_eq_one.1 h12
  exact ⟨fun i => real_of_abs_lt_inf _ (Host.reduce_andi_all _ _ _ _ _ h1 i),
    fun i => real_of_abs_lt_inf _ (Host.reduce_andi_all _ _ _ _ _ h2 i)⟩

end Cert.Pre_finite_inputs.Hand

end
-- ==== Proof.lean ====
/-
  The certificate of the fused mean-aggregation layer against its reference.

  Both programs compute, for every node `n` and output channel `j`,
      relu (h · W_selfᵀ + b + mean over the edges into n of (h[src] · W_edgeᵀ)),
  the mean taken with the in-degree clamped below by one. The reference multiplies `h` by `W_edgeᵀ` first and then gathers
  and sums the product rows per target node; the kernel gathers and sums the raw rows of `h` per target node on the host
  and multiplies the per-node sums by `W_edgeᵀ` inside one fused call, which also scales by the precomputed inverse
  degree, adds the self-loop product and the bias, and clamps at zero. At the ideal values the roundings to bf16 are the
  identity; the two orders agree because a segment sum commutes with a matrix product on finite entries (the
  precondition gives finiteness of `h` and `W_edge`), and multiplying by `1 / d` is dividing by `d` for `d ≥ 1`.

  The three frames are the generated ones (the reference's is its run with the result dropped); nothing was rewritten
  by the idealization, so there is nothing to preserve; the value claim sets the kernel's run (the result array as one
  function of the call's operand arrays, Proof/Blocks.lean) beside the reference's run and joins them by
  Proof/Bridge.lean.
-/
import proofs.«103451_j35192962023430_2_alg».proof.Defs
import proofs.«103451_j35192962023430_2_alg».proof.Proof.Gen.Kernel
import proofs.«103451_j35192962023430_2_alg».proof.Proof.Gen.Kernel.Skeleton
import proofs.«103451_j35192962023430_2_alg».proof.Proof.Gen.Kernel.Launch
import proofs.«103451_j35192962023430_2_alg».proof.Proof.Gen.Kernel.Points
import proofs.«103451_j35192962023430_2_alg».proof.Proof.Gen.Kernel.Frame
import proofs.«103451_j35192962023430_2_alg».proof.Proof.Gen.KernelIdeal
import proofs.«103451_j35192962023430_2_alg».proof.Proof.Gen.KernelIdeal.Skeleton
import proofs.«103451_j35192962023430_2_alg».proof.Proof.Gen.KernelIdeal.Launch
import proofs.«103451_j35192962023430_2_alg».proof.Proof.Gen.KernelIdeal.Points
import proofs.«103451_j35192962023430_2_alg».proof.Proof.Gen.KernelIdeal.Frame
import proofs.«103451_j35192962023430_2_alg».proof.Proof.Gen.ReferenceIdeal
import proofs.«103451_j35192962023430_2_alg».proof.Proof.Gen.KernelIdeal.Value
import proofs.«103451_j35192962023430_2_alg».proof.Proof.Gen.ReferenceIdeal.Run
import proofs.«103451_j35192962023430_2_alg».proof.Proof.Gen.ReferenceIdeal.Read
import proofs.«103451_j35192962023430_2_alg».proof.Proof.Gen.Pre_finite_inputs
import proofs.«103451_j35192962023430_2_alg».proof.Proof.Blocks
import proofs.«103451_j35192962023430_2_alg».proof.Proof.Bridge
import proofs.«103451_j35192962023430_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the same result array: the kernel's is `outOf` of the operand arrays the call is launched on,
    the reference's is its composed term of the arguments; the arguments agree, and under the precondition the two
    are one function. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq]
  rw [(hagree c).1, (hagree c).2.1, (hagree c).2.2.1, (hagree c).2.2.2.1, (hagree c).2.2.2.2.1, (hagree c).2.2.2.2.2]
  obtain ⟨hf0, hf3⟩ := Cert.Pre_finite_inputs.Hand.finite_of_pre _ _ _ _ _ _ (hpre c)
  exact Cert.KernelIdeal.Hand.out_eq_ref _ _ _ _ _ _ hf0 hf3 _ _ _ _ _ _
    (Cert.KernelIdeal.Hand.V_h m c) (Cert.KernelIdeal.Hand.V_sums m c) (Cert.KernelIdeal.Hand.V_inv m c)
    (Cert.KernelIdeal.Hand.V_we m c) (Cert.KernelIdeal.Hand.V_ws m c) (Cert.KernelIdeal.Hand.V_b m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
